-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S4096x11008 : Shape := ⟨2, ![4096, 11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S4096x11008 : S_.BroadcastsInDim S4096x11008 (![] : Fin 0 → Fin S4096x11008.rank)
  reducesTo_S4096x11008_S_d0_1 : S4096x11008.ReducesTo [0, 1] S_

variable [Facts]

def fn_part1 {F : FTy → Type} [FloatOps F] (main_v13 : IVec S_ 1) (main_v16 : IVec S4096x11008 1) : IVec S_ 1 :=
  let main_c_5 : IVec S_ 1 := constantI S_ 1 1#1
  let main_v17 : IVec S_ 1 := (fun x v => Host.reduce IntOp.andi x v reducesTo_S4096x11008_S_d0_1 h_S_) main_v16 main_c_5
  let main_v18 : IVec S_ 1 := andi main_v13 main_v17
  main_v18

def fn {F : FTy → Type} [FloatOps F] (main_arg0 : FVec F S4x2048x4096 .f32) (main_arg1 : FVec F S11008x4096 .f32) (main_arg2 : FVec F S11008x4096 .f32) (main_arg3 : FVec F S4096x11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x4096 .f32 := Host.absf main_arg2
  let main_cst_2 : FVec F S_ .f32 := constant S_ .f32 0x7F800000#32
  let main_v10 : FVec F S11008x4096 .f32 := broadcastInDim S11008x4096 ![] bcast_S_S11008x4096 main_cst_2
  let main_v11 : IVec S11008x4096 1 := cmpf .olt main_v9 main_v10
  let main_c_3 : IVec S_ 1 := constantI S_ 1 1#1
  let main_v12 : IVec S_ 1 := (fun x v => Host.reduce IntOp.andi x v reducesTo_S11008x4096_S_d0_1 h_S_) main_v11 main_c_3
  let main_v13 : IVec S_ 1 := andi main_v8 main_v12
  let main_v14 : FVec F S4096x11008 .f32 := Host.absf main_arg3
  let main_cst_4 : FVec F S_ .f32 := constant S_ .f32 0x7F800000#32
  let main_v15 : FVec F S4096x11008 .f32 := broadcastInDim S4096x11008 ![] bcast_S_S4096x11008 main_cst_4
  let main_v16 : IVec S4096x11008 1 := cmpf .olt main_v14 main_v15
  fn_part1 (F := F) main_v13 main_v16
-- ==== Kernel.lean ====
abbrev S4x2048x4096 : Shape := ⟨3, ![4, 2048, 4096]⟩
abbrev S11008x4096 : Shape := ⟨2, ![11008, 4096]⟩
abbrev S4096x11008 : Shape := ⟨2, ![4096, 11008]⟩
abbrev S8192x4096 : Shape := ⟨2, ![8192, 4096]⟩
abbrev S512x4096 : Shape := ⟨2, ![512, 4096]⟩
abbrev S256x4096 : Shape := ⟨2, ![256, 4096]⟩
abbrev S4096x256 : Shape := ⟨2, ![4096, 256]⟩
abbrev S512x256 : Shape := ⟨2, ![512, 256]⟩

abbrev nBuf : Space → Nat
  | .hbm => 11
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S8192x4096, .f32⟩
  | .hbm, ⟨5, _⟩ => ⟨S8192x4096, .bf16⟩
  | .hbm, ⟨6, _⟩ => ⟨S11008x4096, .bf16⟩
  | .hbm, ⟨7, _⟩ => ⟨S11008x4096, .bf16⟩
  | .hbm, ⟨8, _⟩ => ⟨S4096x11008, .bf16⟩
  | .hbm, ⟨9, _⟩ => ⟨S8192x4096, .f32⟩
  | .hbm, ⟨10, _⟩ => ⟨S4x2048x4096, .f32⟩
  | .local _ .vmem, ⟨0, _⟩ => ⟨S512x4096, .bf16⟩
  | .local _ .vmem, ⟨1, _⟩ => ⟨S512x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S4096x256, .bf16⟩
  | .local _ .vmem, ⟨7, _⟩ => ⟨S4096x256, .bf16⟩
  | .local _ .vmem, ⟨8, _⟩ => ⟨S512x4096, .f32⟩
  | .local _ .vmem, ⟨9, _⟩ => ⟨S512x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4x2048x4096_S8192x4096 : S4x2048x4096.ShapeCasts S8192x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  shapeCasts_S8192x4096_S4x2048x4096 : S8192x4096.ShapeCasts S4x2048x4096
  dot_S512x4096_S256x4096_S512x256_1_1_0_0_n_n_wf : DotDims.WF S512x4096 S256x4096 S512x256 [1] [1] [0] [0] [] []
  dot_S512x256_S4096x256_S512x4096_1_1_0_0_n_n_wf : DotDims.WF S512x256 S4096x256 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S11008x4096.size a
  hwx0_2 : ∀ i : grid0.Coords, EltTy.bits .bf16 = 32 ∨ (Rect.block (s := S11008x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x11008.size a
  hwx0_3 : ∀ i : grid0.Coords, EltTy.bits .bf16 = 32 ∨ (Rect.block (s := S4096x11008) S4096x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S8192x4096.size a
  hwx0_4 : ∀ i : grid0.Coords, EltTy.bits .f32 = 32 ∨ (Rect.block (s := S8192x4096) S512x4096.size (cc0_transform_4 i) (hinb0_4 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf
def dot_S512x256_S4096x256_S512x4096_1_1_0_0_n_n : DotDims S512x256 S4096x256 S512x4096 where
  lhsContracting := [1]
  rhsContracting := [1]
  lhsNonContracting := [0]
  rhsNonContracting := [0]
  lhsBatch := []
  rhsBatch := []
  wf := dot_S512x256_S4096x256_S512x4096_1_1_0_0_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4096x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S4096x11008 : Shape := ⟨2, ![4096, 11008]⟩
abbrev S8192x4096 : Shape := ⟨2, ![8192, 4096]⟩
abbrev S8192x11008 : Shape := ⟨2, ![8192, 11008]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S8192x4096, .f32⟩
  | .hbm, ⟨5, _⟩ => ⟨S4096x11008, .f32⟩
  | .hbm, ⟨6, _⟩ => ⟨S8192x11008, .f32⟩
  | .hbm, ⟨7, _⟩ => ⟨S4096x11008, .f32⟩
  | .hbm, ⟨8, _⟩ => ⟨S8192x11008, .f32⟩
  | .hbm, ⟨9, _⟩ => ⟨S8192x11008, .f32⟩
  | .hbm, ⟨10, _⟩ => ⟨S8192x11008, .f32⟩
  | .hbm, ⟨11, _⟩ => ⟨S_, .f32⟩
  | .hbm, ⟨12, _⟩ => ⟨S8192x11008, .f32⟩
  | .hbm, ⟨13, _⟩ => ⟨S8192x11008, .f32⟩
  | .hbm, ⟨14, _⟩ => ⟨S_, .f32⟩
  | .hbm, ⟨15, _⟩ => ⟨S8192x11008, .f32⟩
  | .hbm, ⟨16, _⟩ => ⟨S8192x11008, .f32⟩
  | .hbm, ⟨17, _⟩ => ⟨S8192x11008, .f32⟩
  | .hbm, ⟨18, _⟩ => ⟨S8192x11008, .f32⟩
  | .hbm, ⟨19, _⟩ => ⟨S11008x4096, .f32⟩
  | .hbm, ⟨20, _⟩ => ⟨S8192x4096, .f32⟩
  | .hbm, ⟨21, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩

abbrev nD : Nat := 1
abbrev τ : Topo := Topo.v7x

variable {F : FTy → Type} [FloatOps F]

class Facts₀ : Prop where
  shapeCasts_S4x2048x4096_S8192x4096 : S4x2048x4096.ShapeCasts S8192x4096
  transposes_S11008x4096_S4096x11008_1_0 : S11008x4096.Transposes [1, 0] S4096x11008
  bcast_S_S8192x11008 : S_.BroadcastsInDim S8192x11008 (![] : Fin 0 → Fin S8192x11008.rank)
  transposes_S4096x11008_S11008x4096_1_0 : S4096x11008.Transposes [1, 0] S11008x4096
  shapeCasts_S8192x4096_S4x2048x4096 : S8192x4096.ShapeCasts S4x2048x4096
  dot_S8192x4096_S4096x11008_S8192x11008_1_0_0_1_n_n_wf : DotDims.WF S8192x4096 S4096x11008 S8192x11008 [1] [0] [0] [1] [] []
  dot_S8192x11008_S11008x4096_S8192x4096_1_0_0_1_n_n_wf : DotDims.WF S8192x11008 S11008x4096 S8192x4096 [1] [0] [0] [1] [] []

variable [Facts₀]

def dot_S8192x4096_S4096x11008_S8192x11008_1_0_0_1_n_n : DotDims S8192x4096 S4096x11008 S8192x11008 where
  lhsContracting := [1]
  rhsContracting := [0]
  lhsNonContracting := [0]
  rhsNonContracting := [1]
  lhsBatch := []
  rhsBatch := []
  wf := dot_S8192x4096_S4096x11008_S8192x11008_1_0_0_1_n_n_wf
def dot_S8192x11008_S11008x4096_S8192x4096_1_0_0_1_n_n : DotDims S8192x11008 S11008x4096 S8192x4096 where
  lhsContracting := [1]
  rhsContracting := [0]
  lhsNonContracting := [0]
  rhsNonContracting := [1]
  lhsBatch := []
  rhsBatch := []
  wf := dot_S8192x11008_S11008x4096_S8192x4096_1_0_0_1_n_n_wf

class Facts : Prop extends Facts₀ where

variable [Facts]
-- ==== Proof.LibReadBack.lean ====
/-
  A block read back after stores the last of which covered it whole.

  When a kernel keeps a running value in a scratch block — store the whole block, load the whole block, store again —
  each load reads the value of the store just before it, whatever was stored earlier and whatever the block held at
  the start. Imports only the library.
-/
import Idealize.ShloMosaic.Lib.Pipeline.Value

noncomputable section

open Idealize.ShloMosaic

namespace Cert.ReadBack

/-- A load of the whole block (the unit-stride rectangle at zero offsets of the block's own sizes, however the zeros
    are spelt), after a list of stores whose LAST one (the head of the list) went through that same rectangle, reads
    that last store's value `w`; the earlier stores `L` are arbitrary. -/
theorem readCov_whole_last {Val : EltTy → Type} [∀ e, Nonempty (Val e)] {S : Shape} {e : EltTy} {sig : RefSig} {κ : Kind}
    {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl,
    View.ld_unit_zero rfl]

end Cert.ReadBack

end
-- ==== Proof.Pieces.lean ====
/-
  What one grid point leaves in the result block, as a value.

  At the first tile of a row block the body stores a zero block, reads it back, and stores the zero block plus the
  tile's down projection; at every other tile it reads what the point before left and stores that plus the tile's
  down projection. Either way the block ends at the body's second stored value, evaluated at the point's four input
  blocks and at the block read back.
-/
import proofs.«134949_j3659312136255_2_alg».proof.Proof.Gen.KernelIdeal.Frame
import proofs.«134949_j3659312136255_2_alg».proof.Proof.LibReadBack

noncomputable section

namespace Cert.GatedMlp.Kernel

open Idealize.ShloMosaic Idealize.ShloMosaic.TcCoe Idealize.ShloMosaic.Tactic Idealize.SL.Sem
open Cert.KernelIdeal Cert.KernelIdeal.Gen

variable {F : FTy → Type} [FloatOps F]

/-- The printed offsets of a whole-block access are the zero function. -/
private theorem offsets_zero : (![0, 0] : Fin 2 → Nat) = fun _ => 0 := funext fun a => by fin_cases a <;> rfl

/-- First tile of a row block: the block ends at the stored sum evaluated at the zero block. -/
theorem caseA_block (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S512x4096 .f32) (harg6 : arg6.IsWhole) (hc0 : cond0_0 i)
    (x0 : Vec F S512x4096 .bf16) (x1 : Vec F S256x4096 .bf16) (x2 : Vec F S256x4096 .bf16) (x3 : Vec F S4096x256 .bf16) :
    out0_A_4 c i arg2 harg2 arg3 harg3 arg4 harg4 arg5 harg5 arg6 harg6 hc0 x0 x1 x2 x3 = k0_pay2 x0 x1 x2 x3 (k0_pay1 (F := F)) := by
  -- The two stores cover the block, so reading them back over anything is the value the pieces alone determine.
  unfold out0_A_4
  rw [View.read_writes_eq_canon _ _ _ (cover0_A_4 c i arg2 harg2 arg3 harg3 arg4 harg4 arg5 harg5 arg6 harg6 hc0 x0 x1 x2 x3)]
  unfold kernelRun0_A
  dsimp only
  sl_unfold_words
  -- The last store went through the whole block, so its payload is what is left; inside that payload the block read
  -- back after the zero store alone is the zero block.
  rw [View.canon_cons_unit_zero (S := S512x4096) offsets_zero, View.readCov_unit_zero (S := S512x4096) arg6.view offsets_zero]
  -- Each input's whole-block load of a whole memref reads its contents.
  simp only [View.readAt_eq_ld, harg2.read_unread, harg3.read_unread, harg4.read_unread, harg5.read_unread,
    View.ld_unit_zero (S := S512x4096) offsets_zero, View.ld_unit_zero (S := S256x4096) offsets_zero,
    View.ld_unit_zero (S := S4096x256) offsets_zero]

/-- Any later tile: the block ends at the stored sum evaluated at what the point before left. -/
theorem caseB_block (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S512x4096 .f32) (harg6 : arg6.IsWhole) (hc0 : ¬cond0_0 i)
    (x0 : Vec F S512x4096 .bf16) (x1 : Vec F S256x4096 .bf16) (x2 : Vec F S256x4096 .bf16) (x3 : Vec F S4096x256 .bf16) (xo4 : Vec F S512x4096 .f32) :
    out0_B_4 c i arg2 harg2 arg3 harg3 arg4 harg4 arg5 harg5 arg6 harg6 hc0 x0 x1 x2 x3 xo4 = k0_pay2 x0 x1 x2 x3 xo4 := by
  -- The one store covers the block, so reading it back over anything is its payload.
  unfold out0_B_4
  rw [View.read_writes_eq_canon _ _ _ (cover0_B_4 c i arg2 harg2 arg3 harg3 arg4 harg4 arg5 harg5 arg6 harg6 hc0 x0 x1 x2 x3 xo4)]
  unfold kernelRun0_B
  dsimp only
  rw [View.canon_unit_zero (S := S512x4096) offsets_zero]
  -- Each whole-block load of a whole memref reads its contents: the four inputs, and the block's running value.
  simp only [View.readAt_eq_ld, harg2.read_unread, harg3.read_unread, harg4.read_unread, harg5.read_unread, harg6.read_unread,
    View.ld_unit_zero (S := S512x4096) offsets_zero, View.ld_unit_zero (S := S256x4096) offsets_zero,
    View.ld_unit_zero (S := S4096x256) offsets_zero]

end Cert.GatedMlp.Kernel

end
-- ==== Proof.LibMatmulRows.lean ====
/-
  A rank-2 matrix product whose contraction runs along the SECOND axis of both operands, read at an entry.

  `matmul_rows_rows`: a matrix unit's product of an [A, K] by a [B, K] matrix into a zero accumulator, contracting
  axis 1 of the left operand with axis 1 of the right one, read at (p, q), is ∑ k, L(p,k) · R(q,k): row p of the left
  operand times ROW q of the right one (a product with the transpose). Stated for any dimension record whose four index
  facts (the left index takes the output row and the contraction position, the right index the output column and the
  contraction position) are supplied.
-/
import Idealize.ShloMosaic.Lib.ValueIdx
import Idealize.ShloMosaic.Lib.Pipeline.Value
import Idealize.ShloMosaic.PureOps.Ideal.Laws

noncomputable section

namespace Cert.MatmulRows

open Idealize.ShloMosaic Idealize.ShloMosaic.ValueIdx

/-- A matrix product into a zero accumulator that contracts the second axis of both operands, read at (p, q): the sum
    over the contracted axis of the left operand's row p times the right operand's row q. -/
theorem matmul_rows_rows {A K B : ℕ} {φ₁ φ₂ : FTy}
    (d : DotDims ⟨2, ![A, K]⟩ ⟨2, ![B, K]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (i 1).val)
    (hr1 : ∀ (i : (⟨2, ![A, B]⟩ : Shape).Idx) (q : d.contr.Idx), (d.rhsIdx i q 1).val = (q ⟨0, by omega⟩).val)
    (prec : Option ContractPrecision) (L : FVec Ideal ⟨2, ![A, K]⟩ φ₁) (R : FVec Ideal ⟨2, ![B, K]⟩ φ₂) (p : Fin A) (q : Fin B) :
    FloatOps.matmul d prec L R (constant ⟨2, ![A, B]⟩ .f32 0x00000000#32) (ix2 p q)
      = ∑ k : Fin K, L (ix2 p k) * R (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.MatmulRows

end
-- ==== Proof.LibBlockedSum.lean ====
/-
  A sum over `N * R` consecutive indices taken block by block, and a running sum.

  Index `r` of `Fin (N * R)` is `R * t + p` for exactly one block `t : Fin N` and one position `p : Fin R` inside the
  block. So a sum over all of `Fin (N * R)`, in an additive commutative monoid, is the sum over the blocks of each
  block's sum. The two instances spell this out for 16384 = 32 · 512 and 16384 = 8 · 2048.

  A sequence that starts at the first term and adds the next term at every step is the sequence of partial sums.
-/
import Mathlib.Algebra.BigOperators.Fin
import Mathlib.Logic.Equiv.Fin.Basic

namespace Cert.BlockedSum

/-- Position `p` of block `t` is an index below `N * R`. -/
theorem block_lt {N R : ℕ} (t : Fin N) (p : Fin R) : R * t.val + p.val < N * R :=
  calc R * t.val + p.val < R * t.val + R := Nat.add_lt_add_left p.isLt _
    _ = R * (t.val + 1) := (Nat.mul_succ R t.val).symm
    _ ≤ R * N := Nat.mul_le_mul_left R t.isLt
    _ = N * R := Nat.mul_comm R N

/-- A sum over `Fin (N * R)` is the sum over the `N` blocks of the sums over the `R` positions of a block. -/
theorem sum_by_blocks {M : Type*} [AddCommMonoid M] {N R : ℕ} (H : Fin (N * R) → M) :
    ∑ r : Fin (N * R), H r = ∑ t : Fin N, ∑ p : Fin R, H ⟨R * t.val + p.val, block_lt t p⟩ := by
  rw [← Equiv.sum_comp finProdFinEquiv H, Fintype.sum_prod_type]
  refine Finset.sum_congr rfl fun t _ => Finset.sum_congr rfl fun p _ => congrArg H (Fin.ext ?_)
  show p.val + R * t.val = R * t.val + p.val
  exact Nat.add_comm _ _

/-- 16384 indices as 32 blocks of 512. -/
theorem sum_32x512 {M : Type*} [AddCommMonoid M] (H : Fin 16384 → M) :
    ∑ r : Fin 16384, H r = ∑ t : Fin 32, ∑ p : Fin 512, H ⟨512 * t.val + p.val, by omega⟩ :=
  sum_by_blocks (N := 32) (R := 512) H

/-- 16384 indices as 8 blocks of 2048. -/
theorem sum_8x2048 {M : Type*} [AddCommMonoid M] (H : Fin 16384 → M) :
    ∑ r : Fin 16384, H r = ∑ t : Fin 8, ∑ p : Fin 2048, H ⟨2048 * t.val + p.val, by omega⟩ :=
  sum_by_blocks (N := 8) (R := 2048) H

/-- A sequence with `acc 0 = b 0` and `acc (n + 1) = acc n + b (n + 1)` is the sequence of partial sums of `b`. -/
theorem running_sum {M : Type*} [AddCommMonoid M] (acc b : ℕ → M) (h0 : acc 0 = b 0)
    (hs : ∀ n, acc (n + 1) = acc n + b (n + 1)) (n : ℕ) : acc n = ∑ s ∈ Finset.range (n + 1), b s := by
  induction n with
  | zero => rw [h0, Finset.sum_range_one]
  | succ n ih =>
    rw [hs, ih]
    exact (Finset.sum_range_succ b (n + 1)).symm

end Cert.BlockedSum
-- ==== Proof.Spec.lean ====
/-
  A gated two-layer perceptron applied to the rows of a matrix, as one function of its four arrays, and the law that
  lets its hidden axis be summed tile by tile.

  For a row p of X and a hidden unit f put g = ∑ k, X(p,k) · Wg(f,k) and u = ∑ k, X(p,k) · Wu(f,k) (products with the
  transposed weights). The hidden activation is (g · logistic g) · u, and entry (p, d) of the result is
  ∑ f, hidden(p,f) · Wd(d,f). The definitions are generic in the four extents, so the same `down` names the whole
  result ([8192, 4096] from 11008 hidden units) and the share one block of 256 hidden units adds to 512 rows.

  The hidden axis has 11008 = 43 · 256 units. Summing 256 consecutive units at a time (`tile`) and adding the tiles one
  after the other to a zero start (`partialOut`) ends at the full sum: addition of extended reals is commutative and
  associative, zero is its unit, and a finite sum may be regrouped into consecutive blocks. Nothing here needs an
  entry to be finite.
-/
import Idealize.ShloMosaic.Lib.ValueIdx
import proofs.«134949_j3659312136255_2_alg».proof.Proof.LibBlockedSum

noncomputable section

open scoped BigOperators

namespace Cert.GatedMlp

open Idealize.ShloMosaic Idealize.ShloMosaic.ValueIdx

/-- A rank-2 array of extended reals. -/
abbrev Arr (a b : ℕ) : Type := (⟨2, ![a, b]⟩ : Shape).Idx → EReal

/-- Entry (p, f) of X · Wᵀ: row p of X against row f of W. -/
def rowDot {A B K : ℕ} (X : Arr A K) (W : Arr B K) (p : Fin A) (f : Fin B) : EReal :=
  ∑ k : Fin K, X (ix2 p k) * W (ix2 f k)

/-- The gated hidden activation of row p at hidden unit f: (g · logistic g) · u. -/
def hidden {A B K : ℕ} (X : Arr A K) (Wg Wu : Arr B K) (p : Fin A) (f : Fin B) : EReal :=
  (rowDot X Wg p f * Ideal.logistic (rowDot X Wg p f)) * rowDot X Wu p f

/-- Entry (p, d) of the down projection: the hidden row p against row d of Wd, over all hidden units. -/
def down {A B K D : ℕ} (X : Arr A K) (Wg Wu : Arr B K) (Wd : Arr D B) (p : Fin A) (d : Fin D) : EReal :=
  ∑ f : Fin B, hidden X Wg Wu p f * Wd (ix2 d f)

variable (X : Arr 8192 4096) (Wg Wu : Arr 11008 4096) (Wd : Arr 4096 11008)

/-- The share of entry (r, d) that hidden units 256·j … 256·j + 255 contribute. -/
def tile (j : Fin 43) (r : Fin 8192) (d : Fin 4096) : EReal :=
  ∑ q : Fin 256, hidden X Wg Wu r ⟨256 * j.val + q.val, by omega⟩ * Wd (ix2 d ⟨256 * j.val + q.val, by omega⟩)

/-- Tile number j, and zero past the last tile. -/
def tileN (j : ℕ) (r : Fin 8192) (d : Fin 4096) : EReal :=
  if h : j < 43 then tile X Wg Wu Wd ⟨j, h⟩ r d else 0

/-- Entry (r, d) after tiles 0 … n have been added, one at a time, to a zero start. -/
def partialOut : ℕ → Fin 8192 → Fin 4096 → EReal
  | 0 => fun r d => 0 + tileN X Wg Wu Wd 0 r d
  | n + 1 => fun r d => partialOut n r d + tileN X Wg Wu Wd (n + 1) r d

theorem partialOut_zero (r : Fin 8192) (d : Fin 4096) :
    partialOut X Wg Wu Wd 0 r d = 0 + tileN X Wg Wu Wd 0 r d := rfl

theorem partialOut_succ (n : ℕ) (r : Fin 8192) (d : Fin 4096) :
    partialOut X Wg Wu Wd (n + 1) r d = partialOut X Wg Wu Wd n r d + tileN X Wg Wu Wd (n + 1) r d := rfl

/-- After the last tile the accumulated entry is the full sum over the hidden axis. -/
theorem partialOut_last (r : Fin 8192) (d : Fin 4096) :
    partialOut X Wg Wu Wd 42 r d = down X Wg Wu Wd r d := by
  have hrun := BlockedSum.running_sum (fun n => partialOut X Wg Wu Wd n r d) (fun s => tileN X Wg Wu Wd s r d)
    (by show (0 : EReal) + _ = _; exact zero_add _) (fun n => rfl) 42
  refine hrun.trans ?_
  rw [Finset.sum_range]
  unfold down
  rw [BlockedSum.sum_by_blocks (N := 43) (R := 256) (fun f : Fin 11008 => hidden X Wg Wu r f * Wd (ix2 d f))]
  refine Finset.sum_congr rfl fun t _ => ?_
  unfold tileN
  rw [dif_pos t.isLt]
  rfl

/-- One point's blocks — 512 rows of X, 256 rows of Wg and of Wu, 256 columns of Wd — give the tile's share: the
    down projection of the blocks is `tile` at the rows and hidden units the blocks were cut from. -/
theorem down_blocks (i : Fin 16) (j : Fin 43) (x0 : Arr 512 4096) (x1 x2 : Arr 256 4096) (x3 : Arr 4096 256)
    (h0 : ∀ (p : Fin 512) (k : Fin 4096), x0 (ix2 p k) = X (ix2 ⟨512 * i.val + p.val, by omega⟩ k))
    (h1 : ∀ (f : Fin 256) (k : Fin 4096), x1 (ix2 f k) = Wg (ix2 ⟨256 * j.val + f.val, by omega⟩ k))
    (h2 : ∀ (f : Fin 256) (k : Fin 4096), x2 (ix2 f k) = Wu (ix2 ⟨256 * j.val + f.val, by omega⟩ k))
    (h3 : ∀ (d : Fin 4096) (f : Fin 256), x3 (ix2 d f) = Wd (ix2 d ⟨256 * j.val + f.val, by omega⟩))
    (p : Fin 512) (d : Fin 4096) :
    down x0 x1 x2 x3 p d = tile X Wg Wu Wd j ⟨512 * i.val + p.val, by omega⟩ d := by
  unfold down tile hidden rowDot
  simp only [h0, h1, h2, h3]

end Cert.GatedMlp

end
-- ==== Proof.Payload.lean ====
/-
  The body's two stored values at an entry, on the extended reals.

  The zero block is zero everywhere. The stored sum at entry (p, q) is the block read back at (p, q) plus the down
  projection of the point's blocks: three matrix-unit products into zero accumulators, each contracting the second
  axis of both operands (so each is a product with a transpose), the logistic gate, two entrywise products, and the
  changes of float format, which are the identity on the extended reals.
-/
import proofs.«134949_j3659312136255_2_alg».proof.Proof.Gen.KernelIdeal.Skeleton
import proofs.«134949_j3659312136255_2_alg».proof.Proof.LibMatmulRows
import proofs.«134949_j3659312136255_2_alg».proof.Proof.Spec

noncomputable section

namespace Cert.GatedMlp.Kernel

open Idealize.ShloMosaic Idealize.ShloMosaic.ValueIdx
open Cert.KernelIdeal Cert.KernelIdeal.Gen

/-- The zero block is zero at every entry. -/
theorem zero_block_apply (y : S512x4096.Idx) : k0_pay1 (F := Ideal) y = 0 :=
  Ideal.ofBits_zero_f32

/-- The dimension record of the first two products: a [512, 4096] by a [256, 4096] matrix, contracting axis 1 of both. -/
private abbrev dotA := dot_S512x4096_S256x4096_S512x256_1_1_0_0_n_n
/-- The dimension record of the last product: a [512, 256] by a [4096, 256] matrix, contracting axis 1 of both. -/
private abbrev dotB := dot_S512x256_S4096x256_S512x4096_1_1_0_0_n_n

/-- The left index of the first record takes its row from the output's row, -/
private theorem dotA_lhs0 (i : S512x256.Idx) (q : dotA.contr.Idx) : (dotA.lhsIdx i q 0).val = (i 0).val := by
  unfold DotDims.lhsIdx
  rw [dif_neg (show ¬(0 : Fin S512x4096.rank) ∈ dotA.lhsBatch by decide), dif_pos (show (0 : Fin S512x4096.rank) ∈ dotA.lhsNonContracting by decide)]
  rfl
/-- and its column from the contraction position; -/
private theorem dotA_lhs1 (i : S512x256.Idx) (q : dotA.contr.Idx) : (dotA.lhsIdx i q 1).val = (q ⟨0, by decide⟩).val :=
  dotA.lhsIdx_val_of_single rfl i q
/-- the right index takes its row from the output's column, -/
private theorem dotA_rhs0 (i : S512x256.Idx) (q : dotA.contr.Idx) : (dotA.rhsIdx i q 0).val = (i 1).val := by
  unfold DotDims.rhsIdx
  rw [dif_neg (show ¬(0 : Fin S256x4096.rank) ∈ dotA.rhsBatch by decide), dif_pos (show (0 : Fin S256x4096.rank) ∈ dotA.rhsNonContracting by decide)]
  rfl
/-- and its column from the contraction position. -/
private theorem dotA_rhs1 (i : S512x256.Idx) (q : dotA.contr.Idx) : (dotA.rhsIdx i q 1).val = (q ⟨0, by decide⟩).val :=
  dotA.rhsIdx_val_of_single rfl i q

/-- The same four facts for the last record. -/
private theorem dotB_lhs0 (i : S512x4096.Idx) (q : dotB.contr.Idx) : (dotB.lhsIdx i q 0).val = (i 0).val := by
  unfold DotDims.lhsIdx
  rw [dif_neg (show ¬(0 : Fin S512x256.rank) ∈ dotB.lhsBatch by decide), dif_pos (show (0 : Fin S512x256.rank) ∈ dotB.lhsNonContracting by decide)]
  rfl
private theorem dotB_lhs1 (i : S512x4096.Idx) (q : dotB.contr.Idx) : (dotB.lhsIdx i q 1).val = (q ⟨0, by decide⟩).val :=
  dotB.lhsIdx_val_of_single rfl i q
private theorem dotB_rhs0 (i : S512x4096.Idx) (q : dotB.contr.Idx) : (dotB.rhsIdx i q 0).val = (i 1).val := by
  unfold DotDims.rhsIdx
  rw [dif_neg (show ¬(0 : Fin S4096x256.rank) ∈ dotB.rhsBatch by decide), dif_pos (show (0 : Fin S4096x256.rank) ∈ dotB.rhsNonContracting by decide)]
  rfl
private theorem dotB_rhs1 (i : S512x4096.Idx) (q : dotB.contr.Idx) : (dotB.rhsIdx i q 1).val = (q ⟨0, by decide⟩).val :=
  dotB.rhsIdx_val_of_single rfl i q

/-- A product of the first kind into a zero accumulator, read at (p, f): row p of the left operand against row f of
    the right one. -/
private theorem matmulA_apply (L : FVec Ideal S512x4096 .bf16) (R : FVec Ideal S256x4096 .bf16) (p : Fin 512) (f : Fin 256) :
    matmul dotA none L R (constant (F := Ideal) S512x256 .f32 0x00000000#32) (ix2 p f) = GatedMlp.rowDot L R p f :=
  Cert.MatmulRows.matmul_rows_rows dotA rfl rfl dotA_lhs0 dotA_lhs1 dotA_rhs0 dotA_rhs1 none L R p f

/-- The last product into a zero accumulator, read at (p, q): row p of the left operand against row q of the right one,
    over the 256 hidden units of the block. -/
private theorem matmulB_apply (L : FVec Ideal S512x256 .bf16) (R : FVec Ideal S4096x256 .bf16) (p : Fin 512) (q : Fin 4096) :
    matmul dotB none L R (constant (F := Ideal) S512x4096 .f32 0x00000000#32) (ix2 p q) = ∑ f : Fin 256, L (ix2 p f) * R (ix2 q f) :=
  Cert.MatmulRows.matmul_rows_rows dotB rfl rfl dotB_lhs0 dotB_lhs1 dotB_rhs0 dotB_rhs1 none L R p q

/-- The stored sum at entry (p, q): the block read back there, plus the blocks' down projection. -/
theorem sum_block_apply (x0 : FVec Ideal S512x4096 .bf16) (x1 x2 : FVec Ideal S256x4096 .bf16) (x3 : FVec Ideal S4096x256 .bf16)
    (xo : FVec Ideal S512x4096 .f32) (p : Fin 512) (q : Fin 4096) :
    k0_pay2 (F := Ideal) x0 x1 x2 x3 xo (ix2 p q) = xo (ix2 p q) + GatedMlp.down x0 x1 x2 x3 p q := by
  unfold k0_pay2
  -- every reshape is from a shape to itself: the identity
  simp only [shapeCast_self]
  -- the entrywise sum, read at (p, q)
  refine (addf_apply _ _ _).trans ?_
  refine congrArg (xo (ix2 p q) + ·) ?_
  -- the last product is a sum over the block's hidden units
  refine (matmulB_apply _ _ p q).trans ?_
  unfold GatedMlp.down GatedMlp.hidden
  refine Finset.sum_congr rfl fun f _ => ?_
  refine congrArg (· * x3 (ix2 q f)) ?_
  -- the hidden value at (p, f): the change of format is the identity and the products and the gate are entrywise
  show (matmul dotA none x0 x1 (constant (F := Ideal) S512x256 .f32 0x00000000#32) (ix2 p f)
      * Ideal.logistic (matmul dotA none x0 x1 (constant (F := Ideal) S512x256 .f32 0x00000000#32) (ix2 p f)))
      * matmul dotA none x0 x2 (constant (F := Ideal) S512x256 .f32 0x00000000#32) (ix2 p f) = _
  rw [matmulA_apply, matmulA_apply]

end Cert.GatedMlp.Kernel

end
-- ==== Proof.Blocks.lean ====
/-
  Each window's block at a grid point, read at an entry of the array it was cut from.

  Grid point t = 43 · i + j is row block i (512 rows) at tile j (256 hidden units). The block of X holds rows
  512·i … 512·i + 511; the blocks of Wg and Wu hold rows 256·j … 256·j + 255; the block of Wd holds columns
  256·j … 256·j + 255. A block's coordinate is always block index × block size + the coordinate inside the block.
-/
import proofs.«134949_j3659312136255_2_alg».proof.Proof.Gen.KernelIdeal.Frame.Runs
import Idealize.ShloMosaic.Lib.ValueIdx
import Idealize.ShloMosaic.Lib.Pipeline.Value

noncomputable section

namespace Cert.GatedMlp.Kernel

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-! ## The block index of each window at a grid point, decided once over the 688 points -/

/-- Window 0 (X) at point t: row block t / 43, column block 0. -/
private theorem idx0 : ∀ t : Fin cfg0.N, win0_0.index t (0 : Fin 2) = t.val / 43 ∧ win0_0.index t (1 : Fin 2) = 0 :=
  (by decide +kernel : ∀ t : Fin grid0.N, _)
/-- Window 1 (Wg) at point t: row block t % 43, column block 0. -/
private theorem idx1 : ∀ t : Fin cfg0.N, win0_1.index t (0 : Fin 2) = t.val % 43 ∧ win0_1.index t (1 : Fin 2) = 0 :=
  (by decide +kernel : ∀ t : Fin grid0.N, _)
/-- Window 2 (Wu) at point t: row block t % 43, column block 0. -/
private theorem idx2 : ∀ t : Fin cfg0.N, win0_2.index t (0 : Fin 2) = t.val % 43 ∧ win0_2.index t (1 : Fin 2) = 0 :=
  (by decide +kernel : ∀ t : Fin grid0.N, _)
/-- Window 3 (Wd) at point t: row block 0, column block t % 43. -/
private theorem idx3 : ∀ t : Fin cfg0.N, win0_3.index t (0 : Fin 2) = 0 ∧ win0_3.index t (1 : Fin 2) = t.val % 43 :=
  (by decide +kernel : ∀ t : Fin grid0.N, _)

/-! ## The blocks

  A block read is the array at the embedded index, and the embedded index is, per axis, block index × block size
  + 1 × the coordinate inside the block. With t = 43·i + j and j < 43, t / 43 = i and t % 43 = j. -/

/-- Rows of X at point t = 43·i + j: block row p is array row 512·i + p. -/
theorem xrows_block (c : Dev nD) (t : Fin cfg0.N) (i : Fin 16) (j : Fin 43) (ht : t.val = 43 * i.val + j.val)
    (p : Fin 512) (k : Fin 4096) :
    (iblk m c 0 t : S512x4096.Idx → Elt F .bf16) (ix2 p k)
      = (V m c main_v1 : S8192x4096.Idx → Elt F .bf16) (ix2 ⟨512 * i.val + p.val, by omega⟩ k) := by
  show V m c main_v1 (((cfg0.win 0).blk t).view.emb (ix2 p k)) = V m c main_v1 (ix2 ⟨512 * i.val + p.val, by omega⟩ k)
  obtain ⟨e0, e1⟩ := idx0 t
  have hj : j.val < 43 := j.isLt
  refine congrArg (V m c main_v1) ?_
  funext a; apply Fin.ext
  match a with
  | ⟨0, _⟩ => show win0_0.index t (0 : Fin 2) * 512 + 1 * p.val = 512 * i.val + p.val; omega
  | ⟨1, _⟩ => show win0_0.index t (1 : Fin 2) * 4096 + 1 * k.val = k.val; omega

/-- Rows of Wg at point t = 43·i + j: block row f is array row 256·j + f. -/
theorem gate_block (c : Dev nD) (t : Fin cfg0.N) (i : Fin 16) (j : Fin 43) (ht : t.val = 43 * i.val + j.val)
    (f : Fin 256) (k : Fin 4096) :
    (iblk m c 1 t : S256x4096.Idx → Elt F .bf16) (ix2 f k)
      = (V m c main_v2 : S11008x4096.Idx → Elt F .bf16) (ix2 ⟨256 * j.val + f.val, by omega⟩ k) := by
  show V m c main_v2 (((cfg0.win 1).blk t).view.emb (ix2 f k)) = V m c main_v2 (ix2 ⟨256 * j.val + f.val, by omega⟩ k)
  obtain ⟨e0, e1⟩ := idx1 t
  have hj : j.val < 43 := j.isLt
  refine congrArg (V m c main_v2) ?_
  funext a; apply Fin.ext
  match a with
  | ⟨0, _⟩ => show win0_1.index t (0 : Fin 2) * 256 + 1 * f.val = 256 * j.val + f.val; omega
  | ⟨1, _⟩ => show win0_1.index t (1 : Fin 2) * 4096 + 1 * k.val = k.val; omega

/-- Rows of Wu at point t = 43·i + j: block row f is array row 256·j + f. -/
theorem up_block (c : Dev nD) (t : Fin cfg0.N) (i : Fin 16) (j : Fin 43) (ht : t.val = 43 * i.val + j.val)
    (f : Fin 256) (k : Fin 4096) :
    (iblk m c 2 t : S256x4096.Idx → Elt F .bf16) (ix2 f k)
      = (V m c main_v3 : S11008x4096.Idx → Elt F .bf16) (ix2 ⟨256 * j.val + f.val, by omega⟩ k) := by
  show V m c main_v3 (((cfg0.win 2).blk t).view.emb (ix2 f k)) = V m c main_v3 (ix2 ⟨256 * j.val + f.val, by omega⟩ k)
  obtain ⟨e0, e1⟩ := idx2 t
  have hj : j.val < 43 := j.isLt
  refine congrArg (V m c main_v3) ?_
  funext a; apply Fin.ext
  match a with
  | ⟨0, _⟩ => show win0_2.index t (0 : Fin 2) * 256 + 1 * f.val = 256 * j.val + f.val; omega
  | ⟨1, _⟩ => show win0_2.index t (1 : Fin 2) * 4096 + 1 * k.val = k.val; omega

/-- Columns of Wd at point t = 43·i + j: block column f is array column 256·j + f. -/
theorem down_block (c : Dev nD) (t : Fin cfg0.N) (i : Fin 16) (j : Fin 43) (ht : t.val = 43 * i.val + j.val)
    (d : Fin 4096) (f : Fin 256) :
    (iblk m c 3 t : S4096x256.Idx → Elt F .bf16) (ix2 d f)
      = (V m c main_v4 : S4096x11008.Idx → Elt F .bf16) (ix2 d ⟨256 * j.val + f.val, by omega⟩) := by
  show V m c main_v4 (((cfg0.win 3).blk t).view.emb (ix2 d f)) = V m c main_v4 (ix2 d ⟨256 * j.val + f.val, by omega⟩)
  obtain ⟨e0, e1⟩ := idx3 t
  have hj : j.val < 43 := j.isLt
  refine congrArg (V m c main_v4) ?_
  funext a; apply Fin.ext
  match a with
  | ⟨0, _⟩ => show win0_3.index t (0 : Fin 2) * 4096 + 1 * d.val = d.val; omega
  | ⟨1, _⟩ => show win0_3.index t (1 : Fin 2) * 256 + 1 * f.val = 256 * j.val + f.val; omega

end Cert.GatedMlp.Kernel

end
-- ==== Proof.Accumulate.lean ====
/-
  What the result block holds after each grid point.

  Grid point t = 43 · i + j works on rows 512·i … 512·i + 511 and on hidden units 256·j … 256·j + 255. At j = 0 the
  block is set to zero plus the first tile's share; at every later j the tile's share is added to what the point
  before left (the block is not written back in between). So after point t the block's entry (p, q) is the sum of
  tiles 0 … j of entry (512·i + p, q), taken one tile at a time from a zero start: `partialOut j`. By induction on j.
-/
import proofs.«134949_j3659312136255_2_alg».proof.Proof.Gen.KernelIdeal.Frame
import proofs.«134949_j3659312136255_2_alg».proof.Proof.Pieces
import proofs.«134949_j3659312136255_2_alg».proof.Proof.Payload
import proofs.«134949_j3659312136255_2_alg».proof.Proof.Blocks
import proofs.«134949_j3659312136255_2_alg».proof.Proof.Spec

noncomputable section

namespace Cert.GatedMlp

open Idealize.ShloMosaic Idealize.ShloMosaic.ValueIdx

variable (X : Arr 8192 4096) (Wg Wu : Arr 11008 4096) (Wd : Arr 4096 11008)

/-- Tile number j.val is tile j. -/
theorem tileN_val (j : Fin 43) (r : Fin 8192) (d : Fin 4096) : tileN X Wg Wu Wd j.val r d = tile X Wg Wu Wd j r d := by
  unfold tileN
  rw [dif_pos j.isLt]

/-- At the first tile the accumulated entry is zero plus that tile's share. -/
theorem partialOut_first (j : Fin 43) (hj : j.val = 0) (r : Fin 8192) (d : Fin 4096) :
    partialOut X Wg Wu Wd j.val r d = 0 + tile X Wg Wu Wd j r d := by
  rw [← tileN_val, hj]
  rfl

/-- At a later tile the accumulated entry is the one before plus that tile's share. -/
theorem partialOut_next (j : Fin 43) (n : ℕ) (hj : j.val = n + 1) (r : Fin 8192) (d : Fin 4096) :
    partialOut X Wg Wu Wd j.val r d = partialOut X Wg Wu Wd n r d + tile X Wg Wu Wd j r d := by
  rw [← tileN_val, hj]
  rfl

end Cert.GatedMlp

namespace Cert.GatedMlp.Kernel

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The flattened x as the region finds it. -/
def foundX (c : Dev nD) : GatedMlp.Arr 8192 4096 := (V m c main_v1 : S8192x4096.Idx → EReal)
/-- The gate weights as the region finds them. -/
def foundGate (c : Dev nD) : GatedMlp.Arr 11008 4096 := (V m c main_v2 : S11008x4096.Idx → EReal)
/-- The up weights as the region finds them. -/
def foundUp (c : Dev nD) : GatedMlp.Arr 11008 4096 := (V m c main_v3 : S11008x4096.Idx → EReal)
/-- The down weights as the region finds them. -/
def foundDown (c : Dev nD) : GatedMlp.Arr 4096 11008 := (V m c main_v4 : S4096x11008.Idx → EReal)

/-- The down projection of point t's four blocks is tile j's share of rows 512·i … 512·i + 511. -/
theorem tile_at (c : Dev nD) (t : Fin cfg0.N) (i : Fin 16) (j : Fin 43) (ht : t.val = 43 * i.val + j.val)
    (p : Fin 512) (q : Fin 4096) :
    GatedMlp.down (A := 512) (B := 256) (K := 4096) (D := 4096) (iblk m c 0 t : S512x4096.Idx → EReal)
        (iblk m c 1 t : S256x4096.Idx → EReal) (iblk m c 2 t : S256x4096.Idx → EReal) (iblk m c 3 t : S4096x256.Idx → EReal) p q
      = GatedMlp.tile (foundX m c) (foundGate m c) (foundUp m c) (foundDown m c) j ⟨512 * i.val + p.val, by omega⟩ q :=
  GatedMlp.down_blocks (foundX m c) (foundGate m c) (foundUp m c) (foundDown m c) i j _ _ _ _
    (fun p k => xrows_block m c t i j ht p k) (fun f k => gate_block m c t i j ht f k)
    (fun f k => up_block m c t i j ht f k) (fun d f => down_block m c t i j ht d f) p q

/-- After point t = 43·i + j the block's entry (p, q) is the sum of tiles 0 … j of entry (512·i + p, q). -/
theorem carried (c : Dev nD) (i : Fin 16) : ∀ (n : ℕ) (j : Fin 43) (t : Fin cfg0.N), j.val = n → t.val = 43 * i.val + j.val →
    ∀ (p : Fin 512) (q : Fin 4096),
    (outsAt0 m c t.val t.isLt : S512x4096.Idx → EReal) (ix2 p q)
      = GatedMlp.partialOut (foundX m c) (foundGate m c) (foundUp m c) (foundDown m c) j.val ⟨512 * i.val + p.val, by omega⟩ q := by
  intro n
  induction n with
  | zero =>
    intro j t hj ht p q
    have h0 : t.val % 43 = 0 := by omega
    rw [outsAt0_A m c t h0,
      caseA_block c (grid0.coords t) (ms0_0 t) (hs0_0 t) (ms0_1 t) (hs0_1 t) (ms0_2 t) (hs0_2 t) (ms0_3 t) (hs0_3 t) (ms0_4 t) (hs0_4 t)
        ((hcond0_0 t).mpr h0) (iblk m c 0 t) (iblk m c 1 t) (iblk m c 2 t) (iblk m c 3 t)]
    refine (sum_block_apply (iblk m c 0 t) (iblk m c 1 t) (iblk m c 2 t) (iblk m c 3 t) (k0_pay1 (F := Ideal)) p q).trans ?_
    rw [zero_block_apply, tile_at m c t i j ht p q]
    exact (GatedMlp.partialOut_first (foundX m c) (foundGate m c) (foundUp m c) (foundDown m c) j hj _ q).symm
  | succ n ih =>
    intro j t hj ht p q
    have hN : t.val < 688 := lt_of_lt_of_eq t.isLt (show cfg0.N = 688 from N_0)
    have h0 : ¬t.val % 43 = 0 := by omega
    have hprev : t.val - 1 < cfg0.N := Nat.lt_of_le_of_lt (Nat.sub_le _ _) t.isLt
    have hjn : n < 43 := by omega
    have ihp := ih ⟨n, hjn⟩ ⟨t.val - 1, hprev⟩ rfl (by show t.val - 1 = 43 * i.val + n; omega) p q
    rw [outsAt0_B m c t h0,
      caseB_block c (grid0.coords t) (ms0_0 t) (hs0_0 t) (ms0_1 t) (hs0_1 t) (ms0_2 t) (hs0_2 t) (ms0_3 t) (hs0_3 t) (ms0_4 t) (hs0_4 t)
        (fun h => h0 ((hcond0_0 t).mp h)) (iblk m c 0 t) (iblk m c 1 t) (iblk m c 2 t) (iblk m c 3 t)
        (outsAt0 m c (t.val - 1) hprev)]
    refine (sum_block_apply (iblk m c 0 t) (iblk m c 1 t) (iblk m c 2 t) (iblk m c 3 t) (outsAt0 m c (t.val - 1) hprev) p q).trans ?_
    rw [ihp, tile_at m c t i j ht p q]
    exact (GatedMlp.partialOut_next (foundX m c) (foundGate m c) (foundUp m c) (foundDown m c) j n hj _ q).symm

end Cert.GatedMlp.Kernel

end
-- ==== Proof.HostPrefix.lean ====
/-
  The arrays the region finds, on the extended reals.

  Before the region the program flattens x from [4, 2048, 4096] to [8192, 4096] and changes the float format of the
  four arrays. A change of float format is the identity on the extended reals, so the region finds x flattened and
  the three weight arrays as they were passed.
-/
import proofs.«134949_j3659312136255_2_alg».proof.Proof.Gen.KernelIdeal.Frame.Runs
import Idealize.ShloMosaic.Lib.ValueIdx
import Idealize.ShloMosaic.Lib.StableHlo.Run

noncomputable section

namespace Cert.GatedMlp.Kernel

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The region finds x flattened to [8192, 4096]. -/
theorem found_x (c : Dev nD) :
    (V m c main_v1 : S8192x4096.Idx → EReal)
      = shapeCast S8192x4096 (m ((c.tc : Thread nD τ).loc main_arg0)) shapeCasts_S4x2048x4096_S8192x4096 := by
  -- What the host operations leave there: x flattened, then its float format changed.
  have e : (V m c main_v1 : S8192x4096.Idx → EReal)
      = truncf (F := Ideal) .bf16 (shapeCast S8192x4096 (m (c, main_arg0)) shapeCasts_S4x2048x4096_S8192x4096) bitsLt_bf16_f32 := by
    show StableHlo.after hostOps0 (fun b => m (c, b)) (Proc.devRef .tc main_v1) = _
    after_results
    rfl
  -- On the extended reals a change of float format is the identity, pointwise.
  rw [e]
  funext i
  rfl

/-- The region finds Wg as passed. -/
theorem found_gate (c : Dev nD) :
    (V m c main_v2 : S11008x4096.Idx → EReal) = m ((c.tc : Thread nD τ).loc main_arg1) := by
  -- What the host operations leave there: the array as passed, its float format changed.
  have e : (V m c main_v2 : S11008x4096.Idx → EReal)
      = truncf (F := Ideal) .bf16 (m (c, main_arg1)) bitsLt_bf16_f32 := by
    show StableHlo.after hostOps0 (fun b => m (c, b)) (Proc.devRef .tc main_v2) = _
    after_results
  -- On the extended reals a change of float format is the identity, pointwise.
  rw [e]
  funext i
  rfl

/-- The region finds Wu as passed. -/
theorem found_up (c : Dev nD) :
    (V m c main_v3 : S11008x4096.Idx → EReal) = m ((c.tc : Thread nD τ).loc main_arg2) := by
  -- What the host operations leave there: the array as passed, its float format changed.
  have e : (V m c main_v3 : S11008x4096.Idx → EReal)
      = truncf (F := Ideal) .bf16 (m (c, main_arg2)) bitsLt_bf16_f32 := by
    show StableHlo.after hostOps0 (fun b => m (c, b)) (Proc.devRef .tc main_v3) = _
    after_results
  -- On the extended reals a change of float format is the identity, pointwise.
  rw [e]
  funext i
  rfl

/-- The region finds Wd as passed. -/
theorem found_down (c : Dev nD) :
    (V m c main_v4 : S4096x11008.Idx → EReal) = m ((c.tc : Thread nD τ).loc main_arg3) := by
  -- What the host operations leave there: the array as passed, its float format changed.
  have e : (V m c main_v4 : S4096x11008.Idx → EReal)
      = truncf (F := Ideal) .bf16 (m (c, main_arg3)) bitsLt_bf16_f32 := by
    show StableHlo.after hostOps0 (fun b => m (c, b)) (Proc.devRef .tc main_v4) = _
    after_results
  -- On the extended reals a change of float format is the identity, pointwise.
  rw [e]
  funext i
  rfl

end Cert.GatedMlp.Kernel

end
-- ==== Proof.Final.lean ====
/-
  The result array after the region, the reshape after it, and the kernel program's run.

  The result block of row block i is written back once, after the last tile (points 43·i + 42). By then it holds the
  sum of all 43 tiles, which is the full sum over the hidden axis: block i of the down projection of the arrays the
  region found. The 16 written blocks are the 16 row blocks of the [8192, 4096] array, so they cover it, and the array
  ends at the down projection. The program then reshapes it to [4, 2048, 4096].
-/
import proofs.«134949_j3659312136255_2_alg».proof.Proof.Accumulate
import proofs.«134949_j3659312136255_2_alg».proof.Proof.HostPrefix
import Idealize.ShloMosaic.Lib.Pipeline.Value
import Idealize.ShloMosaic.Lib.StableHlo.Run

noncomputable section

namespace Cert.GatedMlp

open Idealize.ShloMosaic Idealize.ShloMosaic.ValueIdx

/-- The down projection as a whole array. -/
def wholeDown {A B K D : ℕ} (X : Arr A K) (Wg Wu : Arr B K) (Wd : Arr D B) : Arr A D := fun i =>
  down X Wg Wu Wd ⟨(i 0).val, idx2_lt0 i⟩ ⟨(i 1).val, idx2_lt1 i⟩

theorem wholeDown_apply {A B K D : ℕ} (X : Arr A K) (Wg Wu : Arr B K) (Wd : Arr D B) (r : Fin A) (d : Fin D) :
    wholeDown X Wg Wu Wd (ix2 r d) = down X Wg Wu Wd r d := rfl

end Cert.GatedMlp

namespace Cert.GatedMlp.Kernel

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The result window's block index at point t: row block t / 43, the one column block. -/
theorem out_index : ∀ t : Fin cfg0.N, win0_4.index t (0 : Fin 2) = t.val / 43 ∧ win0_4.index t (1 : Fin 2) = 0 :=
  (by decide +kernel : ∀ t : Fin grid0.N, win0_4.index t (0 : Fin 2) = t.val / 43 ∧ win0_4.index t (1 : Fin 2) = 0)

/-- Block t of an [8192, 4096] array read at (p, q) is the array at row 512·i + p, column q. -/
theorem out_block_read (G : S8192x4096.Idx → EReal) (t : Fin cfg0.N) (i : Fin 16) (j : Fin 43) (ht : t.val = 43 * i.val + j.val)
    (p : Fin 512) (q : Fin 4096) :
    (((cfg0.win 4).blk t).view.read (Elt Ideal) G : S512x4096.Idx → EReal) (ix2 p q) = G (ix2 ⟨512 * i.val + p.val, by omega⟩ q) := by
  show G (((cfg0.win 4).blk t).view.emb (ix2 p q)) = _
  refine congrArg G ?_
  obtain ⟨e0, e1⟩ := out_index t
  funext a; apply Fin.ext
  match a with
  | ⟨0, _⟩ => show win0_4.index t (0 : Fin 2) * 512 + 1 * p.val = 512 * i.val + p.val; omega
  | ⟨1, _⟩ => show win0_4.index t (1 : Fin 2) * 4096 + 1 * q.val = q.val; omega

/-- What a writing-back point writes back is its block of the down projection of the arrays the region found. -/
theorem written_back (c : Dev nD) (t : Fin cfg0.N) (hf : (cfg0.win 4).flush t = true) :
    (dats m 0 c).flushed 4 t
      = ((cfg0.win 4).blk t).view.read (Elt Ideal) (GatedMlp.wholeDown (foundX m c) (foundGate m c) (foundUp m c) (foundDown m c)) := by
  have hN : t.val < 688 := lt_of_lt_of_eq t.isLt (show cfg0.N = 688 from N_0)
  have h42 : t.val % 43 = 42 := (flush0_4 t).mp hf
  show (cfg0.win 4).cut (grid0.coords t) ((dats m 0 c).after 4 t) = _
  rw [after0_4]
  funext y
  obtain ⟨p, q, rfl⟩ : ∃ (p : Fin 512) (q : Fin 4096), y = ix2 p q := ⟨y 0, y 1, eq_ix2 y⟩
  have ht : t.val = 43 * (⟨t.val / 43, by omega⟩ : Fin 16).val + (⟨42, by omega⟩ : Fin 43).val := by
    show t.val = 43 * (t.val / 43) + 42; omega
  refine (carried m c ⟨t.val / 43, by omega⟩ 42 ⟨42, by omega⟩ t rfl ht p q).trans ?_
  refine (GatedMlp.partialOut_last _ _ _ _ _ q).trans ?_
  exact (out_block_read (GatedMlp.wholeDown (foundX m c) (foundGate m c) (foundUp m c) (foundDown m c)) t
    ⟨t.val / 43, by omega⟩ ⟨42, by omega⟩ ht p q).symm

/-- An index of the result array is in point t's block iff each coordinate is in the block's range on its axis. -/
theorem mem_out_block (t : Fin cfg0.N) (i : S8192x4096.Idx) :
    i ∈ ((cfg0.win 4).blk t).view.set ↔ ∀ a : Fin 2, win0_4.index t a * S512x4096.size a ≤ (i a).val ∧ (i a).val < win0_4.index t a * S512x4096.size a + S512x4096.size a := by
  show i ∈ ((View.whole main_v5).slice (win0_4.rect t)).set ↔ _
  rw [View.set_slice_whole, Rect.mem_set_unit]
  exact Iff.rfl

/-- Every entry of the result array lies in the block some point writes back: row r in the block of point
    43·(r / 512) + 42. -/
theorem covered (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 688 := N_0
  have hlt : 43 * ((i 0).val / 512) + 42 < cfg0.N := by rw [hN]; omega
  obtain ⟨e0, e1⟩ := out_index ⟨43 * ((i 0).val / 512) + 42, hlt⟩
  have e0' : win0_4.index ⟨43 * ((i 0).val / 512) + 42, hlt⟩ (0 : Fin 2) = (i 0).val / 512 := by
    rw [e0]; show (43 * ((i 0).val / 512) + 42) / 43 = (i 0).val / 512; omega
  refine ⟨⟨43 * ((i 0).val / 512) + 42, hlt⟩, (flush0_4 _).mpr (by show (43 * ((i 0).val / 512) + 42) % 43 = 42; omega), ?_⟩
  rw [mem_out_block]
  intro a
  match a with
  | ⟨0, _⟩ =>
    show win0_4.index _ (0 : Fin 2) * 512 ≤ (i 0).val ∧ (i 0).val < win0_4.index _ (0 : Fin 2) * 512 + 512
    rw [e0']; omega
  | ⟨1, _⟩ =>
    show win0_4.index _ (1 : Fin 2) * 4096 ≤ (i 1).val ∧ (i 1).val < win0_4.index _ (1 : Fin 2) * 4096 + 4096
    rw [e1]; omega

/-- The result array after the region is the down projection of the arrays the region found. -/
theorem result_array (c : Dev nD) :
    (dats m 0 c).arrAt 4 cfg0.N = GatedMlp.wholeDown (foundX m c) (foundGate m c) (foundUp m c) (foundDown m c) :=
  (dats m 0 c).arrAt_eq_of_cover 4 _ (fun t hf => written_back m c t hf) covered

end Cert.GatedMlp.Kernel

end
-- ==== Proof.KernelRun.lean ====
/-
  The kernel program's run, on the extended reals.

  After the region the result array is the down projection of the arrays the region found: x flattened to
  [8192, 4096] and the three weight arrays as passed. The one operation after the region reshapes it to
  [4, 2048, 4096]. So every execution ends with the result at that reshape of the down projection, and with the
  four arguments unchanged.
-/
import proofs.«134949_j3659312136255_2_alg».proof.Proof.Final

noncomputable section

namespace Cert.GatedMlp.Kernel

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The program's result as a function of its four arguments: flatten x, project down, reshape back. -/
def resultOf (x : S4x2048x4096.Idx → EReal) (wg wu : S11008x4096.Idx → EReal) (wd : S4096x11008.Idx → EReal) :
    S4x2048x4096.Idx → EReal :=
  shapeCast S4x2048x4096 (GatedMlp.wholeDown (shapeCast S8192x4096 x shapeCasts_S4x2048x4096_S8192x4096) wg wu wd)
    shapeCasts_S8192x4096_S4x2048x4096

/-- The result array after the region, in terms of the arguments. -/
theorem result_array_args (c : Dev nD) :
    (dats m 0 c).arrAt 4 cfg0.N
      = GatedMlp.wholeDown (shapeCast S8192x4096 (m ((c.tc : Thread nD τ).loc main_arg0)) shapeCasts_S4x2048x4096_S8192x4096)
          (m ((c.tc : Thread nD τ).loc main_arg1)) (m ((c.tc : Thread nD τ).loc main_arg2)) (m ((c.tc : Thread nD τ).loc main_arg3)) := by
  rw [result_array m c]
  unfold foundX foundGate foundUp foundDown
  rw [found_x m c, found_gate m c, found_up m c, found_down m c]

/-- What the reshape after the region leaves in the result buffer. -/
theorem tail_value (c : Dev nD) :
    Pipeline.afterTail₀ cfgs (dats m) 0 (V0 m) [hostOps1] c main_v6
      = resultOf (m ((c.tc : Thread nD τ).loc main_arg0)) (m ((c.tc : Thread nD τ).loc main_arg1))
          (m ((c.tc : Thread nD τ).loc main_arg2)) (m ((c.tc : Thread nD τ).loc main_arg3)) := by
  unfold resultOf Pipeline.afterTail₀
  show StableHlo.after hostOps1 _ (Proc.devRef .tc main_v6) = _
  after_results
  have e : Pipeline.withArrays (cfgs 0).spec c (V0 m c) (fun w => (dats m 0 c).arrAt w (cfgs 0).N) (Proc.tc.devRef main_v5)
      = GatedMlp.wholeDown (shapeCast S8192x4096 (m ((c.tc : Thread nD τ).loc main_arg0)) shapeCasts_S4x2048x4096_S8192x4096)
          (m ((c.tc : Thread nD τ).loc main_arg1)) (m ((c.tc : Thread nD τ).loc main_arg2)) (m ((c.tc : Thread nD τ).loc main_arg3)) :=
    (Pipeline.withArrays_arr spec0 launch0.win.arr_inj c (V0 m c) (fun w => (dats m 0 c).arrAt w cfg0.N) 4).trans (result_array_args m c)
  generalize Pipeline.withArrays (cfgs 0).spec c (V0 m c) (fun w => (dats m 0 c).arrAt w (cfgs 0).N) (Proc.tc.devRef main_v5) = W at e
  subst e
  rfl

/-- Every weakly fair execution of the kernel program terminates with the result at `resultOf` of the arguments
    and the arguments unchanged. -/
theorem run : θ_run defs (onTc (τ := τ) (main (F := Ideal))) ⟨m, fun _ => 0, ρ⟩ (fun r => ∀ c : Dev nD,
      r.2.mem ((c.tc : Thread nD τ).loc main_v6)
        = resultOf (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v6 (Pipeline.mem_restRefs_of main_v6 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.GatedMlp.Kernel

end
-- ==== Proof.RefProduct.lean ====
/-
  The reference, before its final reshape, is the gated perceptron's down projection.

  The reference flattens x, multiplies it by the transposed Wu and by the transposed Wg (host matrix products, each a
  sum over the 4096 input features), applies g ↦ g · (1 / (1 + exp (−g))) to the gate product — the logistic function
  spelt in host operations, which on the extended reals is the logistic function itself —, multiplies by the up
  product, and multiplies the result by the transposed Wd (a sum over the 11008 hidden units). Entry (r, d) is
  therefore ∑ f, ((g · logistic g) · u)(r, f) · Wd(d, f) with the flattened x kept as one array.
-/
import proofs.«134949_j3659312136255_2_alg».proof.Proof.Gen.ReferenceIdeal.Read
import proofs.«134949_j3659312136255_2_alg».proof.Proof.Spec
import Idealize.ShloMosaic.Lib.IdealHost

noncomputable section

namespace Cert.GatedMlp.Reference

open Idealize.ShloMosaic Idealize.ShloMosaic.ValueIdx
open Cert.ReferenceIdeal Cert.ReferenceIdeal.Read

/-! ### Index equations: each product reads its operands at (row, summed index) and (summed index, column), and a
    transposed operand swaps its two coordinates. -/

/-- The last product's left operand is read at (r, f). -/
private theorem lidx8 (r : Fin 8192) (d : Fin 4096) (f : Fin 11008) :
    lidx_main_v8 (ix2 r d) f = ix2 r f :=
  funext fun a => Fin.ext (by match a with | ⟨0, _⟩ => rfl | ⟨1, _⟩ => rfl)

/-- The last product's right operand is the transposed Wd at (f, d), which is Wd at (d, f). -/
private theorem ridx8 (r : Fin 8192) (d : Fin 4096) (f : Fin 11008) :
    idx_main_v7 (ridx_main_v8 (ix2 r d) f) = ix2 d f :=
  funext fun a => Fin.ext (by match a with | ⟨0, _⟩ => rfl | ⟨1, _⟩ => rfl)

/-- The gate product's left operand is read at (r, k). -/
private theorem lidx4 (r : Fin 8192) (f : Fin 11008) (k : Fin 4096) :
    lidx_main_v4 (ix2 r f) k = ix2 r k :=
  funext fun a => Fin.ext (by match a with | ⟨0, _⟩ => rfl | ⟨1, _⟩ => rfl)

/-- The gate product's right operand is the transposed Wg at (k, f), which is Wg at (f, k). -/
private theorem ridx4 (r : Fin 8192) (f : Fin 11008) (k : Fin 4096) :
    idx_main_v3 (ridx_main_v4 (ix2 r f) k) = ix2 f k :=
  funext fun a => Fin.ext (by match a with | ⟨0, _⟩ => rfl | ⟨1, _⟩ => rfl)

/-- The up product's left operand is read at (r, k). -/
private theorem lidx2 (r : Fin 8192) (f : Fin 11008) (k : Fin 4096) :
    lidx_main_v2 (ix2 r f) k = ix2 r k :=
  funext fun a => Fin.ext (by match a with | ⟨0, _⟩ => rfl | ⟨1, _⟩ => rfl)

/-- The up product's right operand is the transposed Wu at (k, f), which is Wu at (f, k). -/
private theorem ridx2 (r : Fin 8192) (f : Fin 11008) (k : Fin 4096) :
    idx_main_v1 (ridx_main_v2 (ix2 r f) k) = ix2 f k :=
  funext fun a => Fin.ext (by match a with | ⟨0, _⟩ => rfl | ⟨1, _⟩ => rfl)

/-! ### The three stages -/

/-- The gate product at (r, f) is row r of the flattened x against row f of Wg. -/
private theorem gate_apply (x0 : (⟨S4x2048x4096, .f32⟩ : BufTy).Contents (Elt Ideal)) (x1 : (⟨S11008x4096, .f32⟩ : BufTy).Contents (Elt Ideal))
    (r : Fin 8192) (f : Fin 11008) :
    val_main_v4 (F := Ideal) x0 x1 (ix2 r f) = GatedMlp.rowDot (val_main_v0 (F := Ideal) x0) x1 r f := by
  rw [val_main_v4_apply]
  unfold GatedMlp.rowDot
  refine Finset.sum_congr rfl fun k _ => ?_
  rw [val_main_v3_apply, lidx4, ridx4]

/-- The up product at (r, f) is row r of the flattened x against row f of Wu. -/
private theorem up_apply (x0 : (⟨S4x2048x4096, .f32⟩ : BufTy).Contents (Elt Ideal)) (x2 : (⟨S11008x4096, .f32⟩ : BufTy).Contents (Elt Ideal))
    (r : Fin 8192) (f : Fin 11008) :
    val_main_v2 (F := Ideal) x0 x2 (ix2 r f) = GatedMlp.rowDot (val_main_v0 (F := Ideal) x0) x2 r f := by
  rw [val_main_v2_apply]
  unfold GatedMlp.rowDot
  refine Finset.sum_congr rfl fun k _ => ?_
  rw [val_main_v1_apply, lidx2, ridx2]

/-- The gated activation at (r, f): the gate g times 1 / (1 + exp (−g)), which is logistic g by definition (the
    constant word read by both broadcasts is the extended real 1), times the up product. -/
private theorem hidden_apply (x0 : (⟨S4x2048x4096, .f32⟩ : BufTy).Contents (Elt Ideal)) (x1 x2 : (⟨S11008x4096, .f32⟩ : BufTy).Contents (Elt Ideal))
    (r : Fin 8192) (f : Fin 11008) :
    val_main_v6 (F := Ideal) x0 x1 x2 (ix2 r f) = GatedMlp.hidden (val_main_v0 (F := Ideal) x0) x1 x2 r f := by
  rw [val_main_v6_apply, val_main_v5_apply, val_main_call0_v5_apply, val_main_call0_v4_apply, val_main_call0_cst_0_apply,
    val_main_call0_v3_apply, val_main_call0_v2_apply, val_main_call0_cst_apply, val_main_call0_v1_apply,
    val_main_call0_v0_apply, up_apply, gate_apply]
  unfold GatedMlp.hidden Ideal.logistic
  simp only [Ideal.mulf_def, Ideal.addf_def, Ideal.hostDivf_def, Ideal.hostUnary_exp_def, Ideal.hostNegf_def,
    Ideal.negf_def, Ideal.ofBits_def, Ideal.ofBits_one_f32]

/-- The reference's last matrix product at entry (r, d) is the down projection of the flattened x and the three
    weight arrays. -/
theorem product_apply (x0 : (⟨S4x2048x4096, .f32⟩ : BufTy).Contents (Elt Ideal)) (x1 x2 : (⟨S11008x4096, .f32⟩ : BufTy).Contents (Elt Ideal))
    (x3 : (⟨S4096x11008, .f32⟩ : BufTy).Contents (Elt Ideal)) (r : Fin 8192) (d : Fin 4096) :
    val_main_v8 (F := Ideal) x0 x1 x2 x3 (ix2 r d) = GatedMlp.down (val_main_v0 (F := Ideal) x0) x1 x2 x3 r d := by
  rw [val_main_v8_apply]
  unfold GatedMlp.down
  refine Finset.sum_congr rfl fun f _ => ?_
  rw [val_main_v7_apply, lidx8, ridx8, hidden_apply]

end Cert.GatedMlp.Reference

end
-- ==== Proof.RefResult.lean ====
/-
  The reference's result: the reshape of the down projection of the flattened x and the three weight arrays.
-/
import proofs.«134949_j3659312136255_2_alg».proof.Proof.RefProduct
import proofs.«134949_j3659312136255_2_alg».proof.Proof.Final

noncomputable section

namespace Cert.GatedMlp.Reference

open Idealize.ShloMosaic Idealize.ShloMosaic.ValueIdx
open Cert.ReferenceIdeal Cert.ReferenceIdeal.Gen Cert.ReferenceIdeal.Read

/-- The reference's last matrix product is the down projection as a whole array. -/
theorem product_eq (x0 : (⟨S4x2048x4096, .f32⟩ : BufTy).Contents (Elt Ideal)) (x1 x2 : (⟨S11008x4096, .f32⟩ : BufTy).Contents (Elt Ideal))
    (x3 : (⟨S4096x11008, .f32⟩ : BufTy).Contents (Elt Ideal)) :
    val_main_v8 (F := Ideal) x0 x1 x2 x3
      = GatedMlp.wholeDown (shapeCast S8192x4096 x0 shapeCasts_S4x2048x4096_S8192x4096) x1 x2 x3 := by
  funext i
  obtain ⟨r, d, rfl⟩ : ∃ (r : Fin 8192) (d : Fin 4096), i = ix2 r d := ⟨i 0, i 1, eq_ix2 i⟩
  exact product_apply x0 x1 x2 x3 r d

/-- The reference's result is the reshape of that array. -/
theorem result_eq (x0 : (⟨S4x2048x4096, .f32⟩ : BufTy).Contents (Elt Ideal)) (x1 x2 : (⟨S11008x4096, .f32⟩ : BufTy).Contents (Elt Ideal))
    (x3 : (⟨S4096x11008, .f32⟩ : BufTy).Contents (Elt Ideal)) :
    val_main_v9 (F := Ideal) x0 x1 x2 x3
      = shapeCast S4x2048x4096 (GatedMlp.wholeDown (shapeCast S8192x4096 x0 shapeCasts_S4x2048x4096_S8192x4096) x1 x2 x3)
          shapeCasts_S8192x4096_S4x2048x4096 := by
  unfold val_main_v9
  rw [product_eq]

end Cert.GatedMlp.Reference

end
-- ==== Proof.lean ====
/-
  A gated two-layer perceptron on the 8192 rows of x flattened — out(r, d) = ∑ f, ((g · logistic g) · u)(r, f) · Wd(d, f)
  with g = x · Wgᵀ and u = x · Wuᵀ, over 4096 input features and 11008 hidden units — computed by a tiled kernel and by
  a plain reference, are the same function of the four arrays on the extended reals.

  The kernel works on 512 rows and 256 hidden units at a time. For each row block it zeroes the result block, and for
  each of the 43 tiles of hidden units it adds that tile's share ∑ (256 units) hidden · Wd; the block is written back
  after the last tile. The reference takes the three matrix products whole and spells the logistic function as
  1 / (1 + exp (−g)), which on the extended reals is the logistic function. The two agree because a sum over the
  11008 hidden units is the sum of the 43 tiles' sums, added one after the other to zero: addition of extended reals
  is commutative and associative with unit zero, so no entry needs to be finite. A change of float format is the
  identity on the extended reals, and both programs flatten x and reshape the result in the same way.

  The idealized kernel is the kernel with no rewrite applied, so there is nothing to preserve. The three frames are
  the generated ones; the reference's is its generated run with the result dropped.
-/
import proofs.«134949_j3659312136255_2_alg».proof.Defs
import proofs.«134949_j3659312136255_2_alg».proof.Proof.Gen.Kernel
import proofs.«134949_j3659312136255_2_alg».proof.Proof.Gen.Kernel.Skeleton
import proofs.«134949_j3659312136255_2_alg».proof.Proof.Gen.Kernel.Launch
import proofs.«134949_j3659312136255_2_alg».proof.Proof.Gen.Kernel.Points
import proofs.«134949_j3659312136255_2_alg».proof.Proof.Gen.Kernel.Frame
import proofs.«134949_j3659312136255_2_alg».proof.Proof.Gen.KernelIdeal
import proofs.«134949_j3659312136255_2_alg».proof.Proof.Gen.KernelIdeal.Skeleton
import proofs.«134949_j3659312136255_2_alg».proof.Proof.Gen.KernelIdeal.Launch
import proofs.«134949_j3659312136255_2_alg».proof.Proof.Gen.KernelIdeal.Points
import proofs.«134949_j3659312136255_2_alg».proof.Proof.Gen.KernelIdeal.Frame
import proofs.«134949_j3659312136255_2_alg».proof.Proof.Gen.ReferenceIdeal
import proofs.«134949_j3659312136255_2_alg».proof.Proof.Gen.Pre_finite_inputs
import proofs.«134949_j3659312136255_2_alg».proof.Proof.Gen.ReferenceIdeal.Run
import proofs.«134949_j3659312136255_2_alg».proof.Proof.Gen.ReferenceIdeal.Read
import proofs.«134949_j3659312136255_2_alg».proof.Proof.KernelRun
import proofs.«134949_j3659312136255_2_alg».proof.Proof.RefResult
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the four arguments the two programs end with equal results: each is the reshape of
    the down projection of the flattened x and the three weight arrays. -/
theorem algebraic : Cert.algebraic_KernelIdeal_ReferenceIdeal := by
  intro m ρ m' ρ' _ hagree
  refine ⟨_, Cert.GatedMlp.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, (hagree c).1, (hagree c).2.1, (hagree c).2.2.1, (hagree c).2.2.2]
  exact Cert.GatedMlp.Reference.result_eq _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
